-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S32x1228 : Shape := ⟨2, ![32, 1228]⟩
abbrev S1x256 : Shape := ⟨2, ![1, 256]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S32x8192x256 .f32) (main_arg1 : IVec S32x1228 32) (main_arg2 : FVec F S1x256 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S32x8192x256 : Shape := ⟨3, ![32, 8192, 256]⟩
abbrev S32x1228 : Shape := ⟨2, ![32, 1228]⟩
abbrev S1x256 : Shape := ⟨2, ![1, 256]⟩
abbrev S32 : Shape := ⟨1, ![32]⟩
abbrev S32x1 : Shape := ⟨2, ![32, 1]⟩
abbrev S_ : Shape := ⟨0, ![]⟩
abbrev S32x8192 : Shape := ⟨2, ![32, 8192]⟩
abbrev S32x1228x1 : Shape := ⟨3, ![32, 1228, 1]⟩
abbrev S32x1228x2 : Shape := ⟨3, ![32, 1228, 2]⟩
abbrev S32x8192x1 : Shape := ⟨3, ![32, 8192, 1]⟩
abbrev S1x4096x256 : Shape := ⟨3, ![1, 4096, 256]⟩
abbrev S1x4096x1 : Shape := ⟨3, ![1, 4096, 1]⟩
abbrev S1x1x256 : Shape := ⟨3, ![1, 1, 256]⟩

abbrev nBuf : Space → Nat
  | .hbm => 30
  | .vmem => 7
  | .smem => 0
  | _ => 0

abbrev bufTy : (tb : Table) → Fin (tcTables nBuf tb) → BufTy
  | .hbm, ⟨0, _⟩ => ⟨S32x8192x256, .f32⟩
  | .hbm, ⟨1, _⟩ => ⟨S32x1228, .i32⟩
  | .hbm, ⟨2, _⟩ => ⟨S1x256, .f32⟩
  | .hbm, ⟨3, _⟩ => ⟨S32, .i32⟩
  | .hbm, ⟨4, _⟩ => ⟨S32x1, .i32⟩
  | .hbm, ⟨5, _⟩ => ⟨S_, .f32⟩
  | .hbm, ⟨6, _⟩ => ⟨S32x8192, .f32⟩
  | .hbm, ⟨7, _⟩ => ⟨S_, .i32⟩
  | .hbm, ⟨8, _⟩ => ⟨S32x1, .i32⟩
  | .hbm, ⟨9, _⟩ => ⟨S32x1, .i1⟩
  | .hbm, ⟨10, _⟩ => ⟨S_, .i32⟩
  | .hbm, ⟨11, _⟩ => ⟨S32x1, .i32⟩
  | .hbm, ⟨12, _⟩ => ⟨S32x1, .i32⟩
  | .hbm, ⟨13, _⟩ => ⟨S32x1, .i32⟩
  | .hbm, ⟨14, _⟩ => ⟨S_, .i32⟩
  | .hbm, ⟨15, _⟩ => ⟨S32x1228, .i32⟩
  | .hbm, ⟨16, _⟩ => ⟨S32x1228, .i1⟩
  | .hbm, ⟨17, _⟩ => ⟨S_, .i32⟩
  | .hbm, ⟨18, _⟩ => ⟨S32x1228, .i32⟩
  | .hbm, ⟨19, _⟩ => ⟨S32x1228, .i32⟩
  | .hbm, ⟨20, _⟩ => ⟨S32x1228, .i32⟩
  | .hbm, ⟨21, _⟩ => ⟨S32x1228, .i32⟩
  | .hbm, ⟨22, _⟩ => ⟨S32x1228x1, .i32⟩
  | .hbm, ⟨23, _⟩ => ⟨S32x1228x1, .i32⟩
  | .hbm, ⟨24, _⟩ => ⟨S32x1228x2, .i32⟩
  | .hbm, ⟨25, _⟩ => ⟨S_, .f32⟩
  | .hbm, ⟨26, _⟩ => ⟨S32x1228, .f32⟩
  | .hbm, ⟨27, _⟩ => ⟨S32x8192, .f32⟩
  | .hbm, ⟨28, _⟩ => ⟨S32x8192x1, .f32⟩
  | .hbm, ⟨29, _⟩ => ⟨S32x8192x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1, .f32⟩
  | .local _ .vmem, ⟨3, _⟩ => ⟨S1x4096x1, .f32⟩
  | .local _ .vmem, ⟨4, _⟩ => ⟨S1x256, .f32⟩
  | .local _ .vmem, ⟨5, _⟩ => ⟨S1x4096x256, .f32⟩
  | .local _ .vmem, ⟨6, _⟩ => ⟨S1x4096x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32_S32x1_0 : S32.BroadcastsInDim S32x1 (![0] : Fin 1 → Fin S32x1.rank)
  bcast_S_S32x8192 : S_.BroadcastsInDim S32x8192 (![] : Fin 0 → Fin S32x8192.rank)
  bcast_S_S32x1 : S_.BroadcastsInDim S32x1 (![] : Fin 0 → Fin S32x1.rank)
  bcast_S_S32x1228 : S_.BroadcastsInDim S32x1228 (![] : Fin 0 → Fin S32x1228.rank)
  bcast_S32x1_S32x1228_0_1 : S32x1.BroadcastsInDim S32x1228 (![0, 1] : Fin 2 → Fin S32x1228.rank)
  bcast_S32x1228_S32x1228x1_0_1 : S32x1228.BroadcastsInDim S32x1228x1 (![0, 1] : Fin 2 → Fin S32x1228x1.rank)
  concatenates_S32x1228x1_S32x1228x1_S32x1228x2_d2 : Shape.Concatenates [S32x1228x1, S32x1228x1] S32x1228x2 2
  bcast_S32x8192_S32x8192x1_0_1 : S32x8192.BroadcastsInDim S32x8192x1 (![0, 1] : Fin 2 → Fin S32x8192x1.rank)
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  inb_S1x256_S1x256_0_0 : ∀ a, (![0, 0] : Fin 2 → Nat) a + S1x256.size a ≤ S1x256.size a
  h_S1x256 : 0 < S1x256.numel
  shapeCasts_S1x256_S1x1x256 : S1x256.ShapeCasts S1x1x256
  shapeCasts_S1x1x256_S1x1x256 : S1x1x256.ShapeCasts S1x1x256
  broadcasts_S1x1x256_S1x4096x256 : S1x1x256.Broadcasts S1x4096x256
  broadcasts_S1x4096x1_S1x4096x256 : S1x4096x1.Broadcasts S1x4096x256
  inb_S1x4096x256_S1x4096x256_0_0_0 : ∀ a, (![0, 0, 0] : Fin 3 → Nat) a + S1x4096x256.size a ≤ S1x4096x256.size a
  h_S1x4096x256 : 0 < S1x4096x256.numel
  scatter_S32x8192_S32x1228x2_S32x1228_n_01_01_2_wf : ScatterDims.WF S32x8192 S32x1228x2 S32x1228 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x8192x256.size a
  hwx0_0 : ∀ i : grid0.Coords, EltTy.bits .f32 = 32 ∨ (Rect.block (s := S32x8192x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S32x8192x1.size a
  hwx0_1 : ∀ i : grid0.Coords, EltTy.bits .f32 = 32 ∨ (Rect.block (s := S32x8192x1) S1x4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S32x8192x256.size a
  hwx0_3 : ∀ i : grid0.Coords, EltTy.bits .f32 = 32 ∨ (Rect.block (s := S32x8192x256) S1x4096x256.size (cc0_transform_3 i) (hinb0_3 i)).WholeWords (EltTy.packing .f32)

variable [Facts₀]

def scatter_S32x8192_S32x1228x2_S32x1228_n_01_01_2 : ScatterDims S32x8192 S32x1228x2 S32x1228 where
  updateWindowDims := []
  insertedWindowDims := [0, 1]
  scatterDimsToOperandDims := [0, 1]
  indexVectorDim := 2
  wf := scatter_S32x8192_S32x1228x2_S32x1228_n_01_01_2_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S32x1228 : Shape := ⟨2, ![32, 1228]⟩
abbrev S1x256 : Shape := ⟨2, ![1, 256]⟩
abbrev S32 : Shape := ⟨1, ![32]⟩
abbrev S32x1 : Shape := ⟨2, ![32, 1]⟩
abbrev S256 : Shape := ⟨1, ![256]⟩
abbrev S_ : Shape := ⟨0, ![]⟩
abbrev S32x1228x1 : Shape := ⟨3, ![32, 1228, 1]⟩
abbrev S32x1228x2 : Shape := ⟨3, ![32, 1228, 2]⟩
abbrev S32x1228x256 : Shape := ⟨3, ![32, 1228, 256]⟩

abbrev nBuf : Space → Nat
  | .hbm => 26
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S32x1228, .i32⟩
  | .hbm, ⟨2, _⟩ => ⟨S1x256, .f32⟩
  | .hbm, ⟨3, _⟩ => ⟨S32, .i32⟩
  | .hbm, ⟨4, _⟩ => ⟨S32x1, .i32⟩
  | .hbm, ⟨5, _⟩ => ⟨S256, .f32⟩
  | .hbm, ⟨6, _⟩ => ⟨S_, .i32⟩
  | .hbm, ⟨7, _⟩ => ⟨S32x1, .i32⟩
  | .hbm, ⟨8, _⟩ => ⟨S32x1, .i1⟩
  | .hbm, ⟨9, _⟩ => ⟨S_, .i32⟩
  | .hbm, ⟨10, _⟩ => ⟨S32x1, .i32⟩
  | .hbm, ⟨11, _⟩ => ⟨S32x1, .i32⟩
  | .hbm, ⟨12, _⟩ => ⟨S32x1, .i32⟩
  | .hbm, ⟨13, _⟩ => ⟨S_, .i32⟩
  | .hbm, ⟨14, _⟩ => ⟨S32x1228, .i32⟩
  | .hbm, ⟨15, _⟩ => ⟨S32x1228, .i1⟩
  | .hbm, ⟨16, _⟩ => ⟨S_, .i32⟩
  | .hbm, ⟨17, _⟩ => ⟨S32x1228, .i32⟩
  | .hbm, ⟨18, _⟩ => ⟨S32x1228, .i32⟩
  | .hbm, ⟨19, _⟩ => ⟨S32x1228, .i32⟩
  | .hbm, ⟨20, _⟩ => ⟨S32x1228, .i32⟩
  | .hbm, ⟨21, _⟩ => ⟨S32x1228x1, .i32⟩
  | .hbm, ⟨22, _⟩ => ⟨S32x1228x1, .i32⟩
  | .hbm, ⟨23, _⟩ => ⟨S32x1228x2, .i32⟩
  | .hbm, ⟨24, _⟩ => ⟨S32x1228x256, .f32⟩
  | .hbm, ⟨25, _⟩ => ⟨S32x8192x256, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  shapeCasts_S1x256_S256 : S1x256.ShapeCasts S256
  bcast_S_S32x1 : S_.BroadcastsInDim S32x1 (![] : Fin 0 → Fin S32x1.rank)
  bcast_S_S32x1228 : S_.BroadcastsInDim S32x1228 (![] : Fin 0 → Fin S32x1228.rank)
  bcast_S32x1_S32x1228_0_1 : S32x1.BroadcastsInDim S32x1228 (![0, 1] : Fin 2 → Fin S32x1228.rank)
  bcast_S32x1228_S32x1228x1_0_1 : S32x1228.BroadcastsInDim S32x1228x1 (![0, 1] : Fin 2 → Fin S32x1228x1.rank)
  concatenates_S32x1228x1_S32x1228x1_S32x1228x2_d2 : Shape.Concatenates [S32x1228x1, S32x1228x1] S32x1228x2 2
  bcast_S256_S32x1228x256_2 : S256.BroadcastsInDim S32x1228x256 (![2] : Fin 1 → Fin S32x1228x256.rank)
  scatter_S32x8192x256_S32x1228x2_S32x1228x256_2_01_01_2_wf : ScatterDims.WF S32x8192x256 S32x1228x2 S32x1228x256 [2] [0, 1] [0, 1] 2

variable [Facts₀]

def scatter_S32x8192x256_S32x1228x2_S32x1228x256_2_01_01_2 : ScatterDims S32x8192x256 S32x1228x2 S32x1228x256 where
  updateWindowDims := [2]
  insertedWindowDims := [0, 1]
  scatterDimsToOperandDims := [0, 1]
  indexVectorDim := 2
  wf := scatter_S32x8192x256_S32x1228x2_S32x1228x256_2_01_01_2_wf

class Facts : Prop extends Facts₀ where

variable [Facts]
-- ==== Proof.LibScatterSet.lean ====
/-
  A scatter whose body returns the update ("set"), read at one index.

  The scatter is a left fold over the update indices: each update whose target lies inside the operand replaces
  the element there, the others are dropped.  Suppose every update that lands on the index `i` carries one and the
  same value `v` (all updates equal, or an update that depends only on coordinates it shares with its target).
  Then the order of the fold does not matter: the result at `i` is `v` if some update lands on `i`, and the
  operand's element otherwise.
-/
import Idealize.ShloMosaic.PureOps

namespace Idealize.ShloMosaic.ScatterSet

open Idealize.ShloMosaic

/-- A left fold of steps, watched at one position `b`: each step either overwrites position `b` with the fixed
    value `v` (when the step "hits") or leaves it alone.  After the fold, position `b` holds `v` if some step of
    the list hit, and its initial value otherwise. -/
theorem foldl_overwrite {ι β γ : Type} (stp : (β → γ) → ι → (β → γ)) (b : β) (hit : ι → Prop) (v : γ)
    (hhit : ∀ r n, hit n → stp r n b = v) (hmiss : ∀ r n, ¬ hit n → stp r n b = r b)
    (L : List ι) (x : β → γ) :
    ((∃ n ∈ L, hit n) → L.foldl stp x b = v) ∧ ((∀ n ∈ L, ¬ hit n) → L.foldl stp x b = x b) := by
  induction L generalizing x with
  | nil => exact ⟨fun ⟨_, h, _⟩ => absurd h (List.not_mem_nil), fun _ => rfl⟩
  | cons n L ih =>
    rw [List.foldl_cons]
    refine ⟨?_, ?_⟩
    · rintro ⟨n', hn', hh⟩
      by_cases hL : ∃ n'' ∈ L, hit n''
      · exact (ih (stp x n)).1 hL
      · have hnone : ∀ n'' ∈ L, ¬ hit n'' := fun n'' h1 h2 => hL ⟨n'', h1, h2⟩
        rw [(ih (stp x n)).2 hnone]
        rcases List.mem_cons.1 hn' with rfl | hn'
        · exact hhit x n' hh
        · exact absurd hh (hnone n' hn')
    · intro hall
      rw [(ih (stp x n)).2 fun n' h => hall n' (List.mem_cons_of_mem _ h)]
      exact hmiss x n (hall n (List.mem_cons_self))

variable {α : Type} {s si u : Shape} {w : Nat}

/-- The scatter's fold, watched at the index `i`: the step for update `n` hits when that update lands on `i`. -/
theorem scatter_set_fold (d : ScatterDims s si u) (x : s.Idx → α) (idx : IVec si w) (upd : u.Idx → α) (i : s.Idx) (v : α)
    (hv : ∀ j, d.resultIdx? j idx = some i → upd j = v) :
    ((∃ j, d.resultIdx? j idx = some i) → Host.scatter d (fun _ b => b) x idx upd i = v)
    ∧ ((∀ j, d.resultIdx? j idx ≠ some i) → Host.scatter d (fun _ b => b) x idx upd i = x i) := by
  unfold Host.scatter
  have key := foldl_overwrite (fun (r : s.Idx → α) (n : Fin u.numel) =>
      match d.resultIdx? (u.rowMajor.symm n) idx with
      | some i₀ => fun i' => if i' = i₀ then (fun _ b => b) (r i₀) (upd (u.rowMajor.symm n)) else r i'
      | none => r) i (fun n => d.resultIdx? (u.rowMajor.symm n) idx = some i) v
    (by
      intro r n hb
      have hu := hv _ hb
      dsimp only
      generalize d.resultIdx? (u.rowMajor.symm n) idx = o at hb
      subst hb
      dsimp only
      rw [if_pos rfl]
      exact hu)
    (by
      intro r n hb
      dsimp only
      generalize d.resultIdx? (u.rowMajor.symm n) idx = o at hb
      cases o with
      | none => rfl
      | some i₀ =>
        dsimp only
        rw [if_neg (fun e : i = i₀ => hb (e ▸ rfl))])
    (List.finRange u.numel) x
  refine ⟨fun ⟨j, hj⟩ => key.1 ⟨u.rowMajor j, List.mem_finRange _, by rw [Equiv.symm_apply_apply]; exact hj⟩,
    fun h => key.2 fun n _ => h _⟩

/-- Some update lands on `i`, and every update landing there carries `v`: the scatter's result at `i` is `v`. -/
theorem scatter_set_of_hit (d : ScatterDims s si u) (x : s.Idx → α) (idx : IVec si w) (upd : u.Idx → α) (i : s.Idx) (v : α)
    (hv : ∀ j, d.resultIdx? j idx = some i → upd j = v) (h : ∃ j, d.resultIdx? j idx = some i) :
    Host.scatter d (fun _ b => b) x idx upd i = v :=
  (scatter_set_fold d x idx upd i v hv).1 h

/-- No update lands on `i`: the scatter's result at `i` is the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i :=
  (scatter_set_fold d x idx upd i (x i) (fun j hj => absurd hj (h j))).2 h

/-- An update lands on `i` exactly when, on every axis of the operand, the start read off the indices plus the
    update's window coordinate is `i`'s coordinate (an equation between integers: a start may be negative or too
    large, and then no index of the operand satisfies it). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + (d.window j a : Int) ∧ d.start j idx a + (d.window j a : Int) < s.size a
    · rw [dif_pos hb] at h
      have e := congrFun (Option.some.inj h) a
      have ea : (d.start j idx a + (d.window j a : Int)).toNat = (i a).val := congrArg Fin.val e
      have := (hb a).1
      omega
    · rw [dif_neg hb] at h
      exact absurd h (by simp)
  · intro h
    have hb : ∀ a, 0 ≤ d.start j idx a + (d.window j a : Int) ∧ d.start j idx a + (d.window j a : Int) < s.size a := fun a => by
      have := h a
      have := (i a).isLt
      omega
    rw [dif_pos hb]
    congr 1
    funext a
    apply Fin.ext
    show (d.start j idx a + (d.window j a : Int)).toNat = (i a).val
    have := h a
    omega

end Idealize.ShloMosaic.ScatterSet
-- ==== Proof.RowReplace.lean ====
/-
  The result both programs compute, as one function of the argument arrays.

  An index array of shape [32, 1228, 2] holds pairs (batch, row), each component read as a signed integer.  Row `n`
  of batch `r` is MARKED when some pair of the array is exactly `(r, n)`; a pair pointing outside
  [0, 32) × [0, 8192) marks nothing, and a row marked twice is marked.  The result replaces every marked row of
  `x : [32, 8192, 256]` by the one row `e : [1, 256]` and keeps every other row of `x`.
-/
import Idealize.ShloMosaic.PureOps.Ideal
import Idealize.ShloMosaic.Lib.ValueIdx

noncomputable section

namespace Cert.RowReplace

open Idealize.ShloMosaic Idealize.ShloMosaic.ValueIdx

/-- Some pair `(p, k)` of the index array names row `n` of batch `r`: its two components, read as signed
    integers, are `r` and `n`. -/
def Marked (idx : IVec ⟨3, ![32, 1228, 2]⟩ 32) (r : Fin 32) (n : Fin 8192) : Prop :=
  ∃ (p : Fin 32) (k : Fin 1228),
    (idx (ix3 p k (0 : Fin 2))).toInt = (r.val : Int) ∧ (idx (ix3 p k (1 : Fin 2))).toInt = (n.val : Int)

open Classical in
/-- Marked rows hold the row `e`, the others are `x`'s. -/
def replaced (x : FVec Ideal ⟨3, ![32, 8192, 256]⟩ .f32) (idx : IVec ⟨3, ![32, 1228, 2]⟩ 32)
    (e : FVec Ideal ⟨2, ![1, 256]⟩ .f32) : FVec Ideal ⟨3, ![32, 8192, 256]⟩ .f32 :=
  fun i => if Marked idx (i 0) (i 1) then e (ix2 (0 : Fin 1) (i 2)) else x i

theorem replaced_of_marked (x : FVec Ideal ⟨3, ![32, 8192, 256]⟩ .f32) (idx : IVec ⟨3, ![32, 1228, 2]⟩ 32)
    (e : FVec Ideal ⟨2, ![1, 256]⟩ .f32) (i : (⟨3, ![32, 8192, 256]⟩ : Shape).Idx) (h : Marked idx (i 0) (i 1)) :
    replaced x idx e i = e (ix2 (0 : Fin 1) (i 2)) := if_pos h

theorem replaced_of_not_marked (x : FVec Ideal ⟨3, ![32, 8192, 256]⟩ .f32) (idx : IVec ⟨3, ![32, 1228, 2]⟩ 32)
    (e : FVec Ideal ⟨2, ![1, 256]⟩ .f32) (i : (⟨3, ![32, 8192, 256]⟩ : Shape).Idx) (h : ¬ Marked idx (i 0) (i 1)) :
    replaced x idx e i = x i := if_neg h

end Cert.RowReplace

end
-- ==== Proof.KernelMask.lean ====
/-
  The dense 0/1 row mask the kernel's host code builds before the call.

  The host normalizes the indices (a negative one gets the axis' extent added), pairs each with its batch number,
  and scatters the constant 1.0 into a [32, 8192] array of zeros at those pairs, then gives the result a trailing
  unit axis.  Every update is the same 1.0, so the mask at (r, n, 0) is 1.0 when some pair is (r, n), and 0.0
  otherwise — whatever the order of the scatter, and however often a row is named.
-/
import proofs.«151775_j59176059404649_2_alg».proof.Proof.Gen.KernelIdeal.Value
import proofs.«151775_j59176059404649_2_alg».proof.Proof.LibScatterSet
import proofs.«151775_j59176059404649_2_alg».proof.Proof.RowReplace
import Idealize.ShloMosaic.Lib.ValueIdx
import Idealize.ShloMosaic.Lib.Pipeline.Value
import Idealize.ShloMosaic.Lib.StableHlo.Run

noncomputable section

namespace Cert.KernelIdeal.Mask

open Cert.KernelIdeal Cert.KernelIdeal.Gen Cert.RowReplace
open Idealize.ShloMosaic Idealize.ShloMosaic.ValueIdx Idealize.ShloMosaic.TcCoe Idealize.SL.Sem Idealize.ShloMosaic.StableHlo

/-- The scatter of the mask: two index components, both axes of the [32, 8192] operand scattered, no window. -/
abbrev dK : ScatterDims S32x8192 S32x1228x2 S32x1228 := scatter_S32x8192_S32x1228x2_S32x1228_n_01_01_2

/-- The index pairs the host computes from the index argument: component 0 the (normalized) batch number of the
    pair's position, component 1 the normalized index. -/
def idxArr (x1 : IVec S32x1228 32) : IVec S32x1228x2 32 :=
  concatenate S32x1228x2 2 [⟨S32x1228x1, (broadcastInDim S32x1228x1 ![0, 1] bcast_S32x1228_S32x1228x1_0_1 (broadcastInDim S32x1228 ![0, 1] bcast_S32x1_S32x1228_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x1228x1, (broadcastInDim S32x1228x1 ![0, 1] bcast_S32x1228_S32x1228x1_0_1 (select (cmpi .slt (x1) (broadcastInDim S32x1228 ![] bcast_S_S32x1228 (constantI S_ 32 0#32))) (addi (x1) (broadcastInDim S32x1228 ![] bcast_S_S32x1228 (constantI S_ 32 8192#32))) (x1)))⟩] concatenates_S32x1228x1_S32x1228x1_S32x1228x2_d2

/-- The mask with its trailing unit axis, as a function of the index argument. -/
def rowMask (x1 : IVec S32x1228 32) : FVec Ideal S32x8192x1 .f32 :=
  broadcastInDim S32x8192x1 ![0, 1] bcast_S32x8192_S32x8192x1_0_1
    (Host.scatter dK (fun _ b => b) (broadcastInDim S32x8192 ![] bcast_S_S32x8192 (constant (F := Ideal) S_ .f32 0x00000000#32))
      (idxArr x1) (broadcastInDim S32x1228 ![] bcast_S_S32x1228 (constant (F := Ideal) S_ .f32 0x3F800000#32)))

/-! ## Where an update lands -/

/-- The scatter-indices index at which update `j` reads component `c` of its pair. -/
theorem siIdx_eq (j : S32x1228.Idx) (c : Fin 2) : dK.siIdx j ⟨c.val, c.isLt⟩ = ix3 (j 0) (j 1) c := by
  funext b
  match b with
  | ⟨0, _⟩ => rfl
  | ⟨1, _⟩ => rfl
  | ⟨2, _⟩ => rfl

/-- The start on each of the two axes is the pair's component for it. -/
theorem start_eq (j : S32x1228.Idx) (idx : IVec S32x1228x2 32) (a : Fin 2) :
    dK.start j idx a = (idx (ix3 (j 0) (j 1) a)).toInt := by
  match a with
  | ⟨0, _⟩ =>
    show (idx (dK.siIdx j ⟨(0 : Fin 2).val, (0 : Fin 2).isLt⟩)).toInt = _
    rw [siIdx_eq]; rfl
  | ⟨1, _⟩ =>
    show (idx (dK.siIdx j ⟨(1 : Fin 2).val, (1 : Fin 2).isLt⟩)).toInt = _
    rw [siIdx_eq]; rfl

/-- There is no window: the update is one element. -/
theorem window_eq (j : S32x1228.Idx) (a : Fin 2) : dK.window j a = 0 := by
  match a with
  | ⟨0, _⟩ => rfl
  | ⟨1, _⟩ => rfl

/-- Update `j` lands on `i` exactly when its pair, read signed, is `i`. -/
theorem lands_iff (j : S32x1228.Idx) (idx : IVec S32x1228x2 32) (i : S32x8192.Idx) :
    dK.resultIdx? j idx = some i ↔
      (idx (ix3 (j 0) (j 1) (0 : Fin 2))).toInt = ((i 0).val : Int) ∧ (idx (ix3 (j 0) (j 1) (1 : Fin 2))).toInt = ((i 1).val : Int) := by
  rw [ScatterSet.resultIdx?_eq_some_iff]
  constructor
  · intro h
    have h0 := h 0
    have h1 := h 1
    rw [start_eq, window_eq] at h0 h1
    exact ⟨by simpa using h0, by simpa using h1⟩
  · rintro ⟨h0, h1⟩ a
    rw [start_eq, window_eq]
    match a with
    | ⟨0, _⟩ => simpa using h0
    | ⟨1, _⟩ => simpa using h1

/-- Some update lands on (r, n) exactly when the row is marked. -/
theorem exists_lands_iff (idx : IVec S32x1228x2 32) (r : Fin 32) (n : Fin 8192) :
    (∃ j, dK.resultIdx? j idx = some (ix2 r n)) ↔ Marked idx r n := by
  constructor
  · rintro ⟨j, hj⟩
    rw [lands_iff] at hj
    exact ⟨j 0, j 1, hj.1, hj.2⟩
  · rintro ⟨p, k, h0, h1⟩
    exact ⟨ix2 p k, (lands_iff _ _ _).2 ⟨h0, h1⟩⟩

/-! ## The mask at an index -/

/-- The mask's trailing axis is a broadcast: at (r, n, 0) it reads the scattered array at (r, n). -/
theorem rowMask_apply (x1 : IVec S32x1228 32) (r : Fin 32) (n : Fin 8192) :
    rowMask x1 (ix3 r n (0 : Fin 1)) =
      Host.scatter dK (fun _ b => b) (broadcastInDim S32x8192 ![] bcast_S_S32x8192 (constant (F := Ideal) S_ .f32 0x00000000#32))
        (idxArr x1) (broadcastInDim S32x1228 ![] bcast_S_S32x1228 (constant (F := Ideal) S_ .f32 0x3F800000#32)) (ix2 r n) := by
  unfold rowMask
  exact broadcastInDim_apply _ bcast_S32x8192_S32x8192x1_0_1 _ (ix3 r n (0 : Fin 1)) (ix2 r n) (fun a => match a with
    | ⟨0, _⟩ => by show r.val = if (32 : Nat) = 1 then 0 else r.val; rw [if_neg (by decide)]
    | ⟨1, _⟩ => by show n.val = if (8192 : Nat) = 1 then 0 else n.val; rw [if_neg (by decide)])

/-- A marked row's mask entry is the word of 1.0. -/
theorem rowMask_of_marked (x1 : IVec S32x1228 32) (r : Fin 32) (n : Fin 8192) (h : Marked (idxArr x1) r n) :
    rowMask x1 (ix3 r n (0 : Fin 1)) = Ideal.ofBits .f32 0x3F800000#32 := by
  rw [rowMask_apply]
  exact ScatterSet.scatter_set_of_hit dK _ _ _ _ _ (fun _ _ => rfl) ((exists_lands_iff _ r n).2 h)

/-- An unmarked row's mask entry is the word of 0.0. -/
theorem rowMask_of_not_marked (x1 : IVec S32x1228 32) (r : Fin 32) (n : Fin 8192) (h : ¬ Marked (idxArr x1) r n) :
    rowMask x1 (ix3 r n (0 : Fin 1)) = Ideal.ofBits .f32 0x00000000#32 := by
  rw [rowMask_apply]
  exact (ScatterSet.scatter_set_of_miss dK _ _ _ _ (fun j hj => h ((exists_lands_iff _ r n).1 ⟨j, hj⟩))).trans rfl

/-! ## The region finds the mask in its second operand -/

variable (m : (ℓ : Loc nD τ sig) → Buf (Elt Ideal) ℓ)

set_option maxHeartbeats 4000000 in
/-- The array the call's second window stages is the mask of the index argument as launched. -/
theorem V_mask (c : Dev nD) :
    (V m c main_v19 : S32x8192x1.Idx → EReal) = rowMask (m ((c : Thread nD τ).loc main_arg1)) := by
  show StableHlo.after (hostOps0 (F := Ideal)) (fun b => m (c, b)) (Proc.devRef .tc main_v19) = _
  after_results
  rfl

end Cert.KernelIdeal.Mask

end
-- ==== Proof.KernelRows.lean ====
/-
  The kernel's result array, whole.

  The grid has one point per (batch, half of the rows): point (b, h) reads rows [4096·h, 4096·h + 4096) of batch `b` of
  `x`, the same rows of the mask, and the whole embedding row, and writes the same rows of the output.  Inside the
  block the body selects, element by element, the embedding row's element where the row's mask entry differs from
  0.0 and `x`'s element where it does not.  The mask entry is 1.0 on a marked row and 0.0 on an unmarked one, and
  1 ≠ 0 on the extended reals, so each block is the block of the array with its marked rows replaced; the 64 blocks
  tile the array.
-/
import proofs.«151775_j59176059404649_2_alg».proof.Proof.Gen.KernelIdeal.Value
import proofs.«151775_j59176059404649_2_alg».proof.Proof.KernelMask
import proofs.«151775_j59176059404649_2_alg».proof.Proof.RowReplace
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Cert.KernelIdeal.Mask Cert.RowReplace
open Idealize.ShloMosaic Idealize.ShloMosaic.ValueIdx Idealize.ShloMosaic.TcCoe Idealize.SL.Sem
open Idealize.ShloMosaic.Pipeline (Dat)

/-! ## The select at one element -/

/-- The word 0x3F800000 is the number 1. -/
theorem one_f32 : Ideal.ofBits .f32 0x3F800000#32 = 1 := by
  simp [Ideal.ofBits, Ideal.ieee]
  rw [← EReal.coe_mul, ← EReal.coe_one]
  congr 1
  norm_num

/-- Where the mask entry is 1.0 the body's result is the embedding row's element: 1 ≠ 0. -/
theorem block_of_one (P0 : Vec Ideal S1x4096x1 .f32) (P1 : Vec Ideal S1x256 .f32) (P2 : Vec Ideal S1x4096x256 .f32)
    (y : S1x4096x256.Idx) (h : P0 (Value.ix3_0 y) = Ideal.ofBits .f32 0x3F800000#32) :
    Value.E3 P0 P1 P2 y = P1 (Value.ix3_1 y) := by
  show Scalar.select (Ideal.cmp .one (P0 (Value.ix3_0 y)) (Ideal.ofBits .f32 0x00000000#32)) (P1 (Value.ix3_1 y)) (P2 (Value.ix3_2 y)) = _
  rw [h, one_f32, Ideal.ofBits_zero_f32]
  simp [Ideal.cmp, Scalar.select]

/-- Where the mask entry is 0.0 the body's result is `x`'s element. -/
theorem block_of_zero (P0 : Vec Ideal S1x4096x1 .f32) (P1 : Vec Ideal S1x256 .f32) (P2 : Vec Ideal S1x4096x256 .f32)
    (y : S1x4096x256.Idx) (h : P0 (Value.ix3_0 y) = Ideal.ofBits .f32 0x00000000#32) :
    Value.E3 P0 P1 P2 y = P2 (Value.ix3_2 y) := by
  show Scalar.select (Ideal.cmp .one (P0 (Value.ix3_0 y)) (Ideal.ofBits .f32 0x00000000#32)) (P1 (Value.ix3_1 y)) (P2 (Value.ix3_2 y)) = _
  rw [h]
  simp [Ideal.cmp, Scalar.select]

/-- The body's result at a block index that sits at (r, n, d) of the arrays: when the three loaded blocks read the
    mask at (r, n, 0), the embedding row at (0, d) and `x` at (r, n, d), it is the replaced array's element. -/
theorem block_value (X : FVec Ideal S32x8192x256 .f32) (x1 : IVec S32x1228 32) (Em : FVec Ideal S1x256 .f32)
    (P0 : Vec Ideal S1x4096x1 .f32) (P1 : Vec Ideal S1x256 .f32) (P2 : Vec Ideal S1x4096x256 .f32) (y : S1x4096x256.Idx)
    (r : Fin 32) (n : Fin 8192) (d : Fin 256)
    (h0 : P0 (Value.ix3_0 y) = rowMask x1 (ix3 r n (0 : Fin 1))) (h1 : P1 (Value.ix3_1 y) = Em (ix2 (0 : Fin 1) d))
    (h2 : P2 (Value.ix3_2 y) = X (ix3 r n d)) :
    Value.E3 P0 P1 P2 y = replaced X (idxArr x1) Em (ix3 r n d) := by
  by_cases h : Marked (idxArr x1) r n
  · rw [block_of_one P0 P1 P2 y (h0.trans (rowMask_of_marked x1 r n h)), h1]
    exact (replaced_of_marked X (idxArr x1) Em (ix3 r n d) h).symm
  · rw [block_of_zero P0 P1 P2 y (h0.trans (rowMask_of_not_marked x1 r n h)), h2]
    exact (replaced_of_not_marked X (idxArr x1) Em (ix3 r n d) h).symm

/-! ## From blocks to the array -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the blocks of `x` and of the mask move with the
    output's block on the batch and row axes, every last-axis block index is 0, the embedding row's block is the
    whole row, and the output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 2) = 0 ∧ win0_2.index t (1 : Fin 2) = 0
    ∧ win0_3.index t (0 : Fin 3) ≤ 31 ∧ win0_3.index t (1 : Fin 3) ≤ 1 :=
  (by decide +kernel : ∀ t : Fin grid0.N, _)

/-- Every (batch, half) is some point's block. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- The array after the run, as a function of the arguments as launched. -/
abbrev result (c : Dev nD) : FVec Ideal S32x8192x256 .f32 :=
  replaced (m ((c : Thread nD τ).loc main_arg0)) (idxArr (m ((c : Thread nD τ).loc main_arg1))) (m ((c : Thread nD τ).loc main_arg2))

/-- WHAT POINT `t` WRITES BACK is block `t` of the replaced array. -/
theorem flushed_eq (c : Dev nD) (t : Fin cfg0.N) :
    (dats m 0 c).flushed 3 t = ((cfg0.win 3).blk t).view.read (Elt Ideal) (result m c) := by
  rw [Value.flushed3]
  obtain ⟨e00, e01, e02, e32, e10, e11, e12, e20, e21, b0, b1⟩ := idx_facts t
  funext y
  have hy0 : (y 0).val < 1 := (y 0).isLt
  have hy1 : (y 1).val < 4096 := (y 1).isLt
  have hy2 : (y 2).val < 256 := (y 2).isLt
  show out0_3 (iblk m c 0 t) (iblk m c 1 t) (iblk m c 2 t) y = result m c (((cfg0.win 3).blk t).view.emb y)
  unfold out0_3
  refine (Value.canon3_eq _ _ _ y).trans ?_
  rw [View.ld_unit_zero hz3, View.ld_unit_zero hz2, View.ld_unit_zero hz3]
  -- the array index under the block index
  have hi : ((cfg0.win 3).blk t).view.emb y
      = ix3 (⟨win0_3.index t (0 : Fin 3) * 1 + 1 * (y 0).val, by omega⟩ : Fin 32)
          (⟨win0_3.index t (1 : Fin 3) * 4096 + 1 * (y 1).val, by omega⟩ : Fin 8192)
          (⟨win0_3.index t (2 : Fin 3) * 256 + 1 * (y 2).val, by omega⟩ : Fin 256) := by
    funext a; apply Fin.ext
    match a with
    | ⟨0, _⟩ => rfl
    | ⟨1, _⟩ => rfl
    | ⟨2, _⟩ => rfl
  refine Eq.trans ?_ (congrArg (result m c) hi.symm)
  refine block_value _ _ _ (iblk m c 1 t) (iblk m c 2 t) (iblk m c 0 t) y _ _ _ ?_ ?_ ?_
  · show V m c main_v19 (((cfg0.win 1).blk t).view.emb (Value.ix3_0 y)) = _
    refine (congrFun (V_mask m c) _).trans (congrArg (rowMask _) ?_)
    funext a; apply Fin.ext
    match a with
    | ⟨0, _⟩ => show win0_1.index t (0 : Fin 3) * 1 + 1 * 0 = win0_3.index t (0 : Fin 3) * 1 + 1 * (y 0).val; omega
    | ⟨1, _⟩ => show win0_1.index t (1 : Fin 3) * 4096 + 1 * (y 1).val = win0_3.index t (1 : Fin 3) * 4096 + 1 * (y 1).val; omega
    | ⟨2, _⟩ => show win0_1.index t (2 : Fin 3) * 1 + 1 * 0 = 0; omega
  · show V m c main_arg2 (((cfg0.win 2).blk t).view.emb (Value.ix3_1 y)) = _
    refine (congrFun (V_main_arg2 m c) _).trans (congrArg (m ((c : Thread nD τ).loc main_arg2)) ?_)
    funext a; apply Fin.ext
    match a with
    | ⟨0, _⟩ => show win0_2.index t (0 : Fin 2) * 1 + 1 * 0 = 0; omega
    | ⟨1, _⟩ => show win0_2.index t (1 : Fin 2) * 256 + 1 * (y 2).val = win0_3.index t (2 : Fin 3) * 256 + 1 * (y 2).val; omega
  · show V m c main_arg0 (((cfg0.win 0).blk t).view.emb (Value.ix3_2 y)) = _
    refine (congrFun (V_main_arg0 m c) _).trans (congrArg (m ((c : Thread nD τ).loc main_arg0)) ?_)
    funext a; apply Fin.ext
    match a with
    | ⟨0, _⟩ => show win0_0.index t (0 : Fin 3) * 1 + 1 * 0 = win0_3.index t (0 : Fin 3) * 1 + 1 * (y 0).val; omega
    | ⟨1, _⟩ => show win0_0.index t (1 : Fin 3) * 4096 + 1 * (y 1).val = win0_3.index t (1 : Fin 3) * 4096 + 1 * (y 1).val; omega
    | ⟨2, _⟩ => show win0_0.index t (2 : Fin 3) * 256 + 1 * (y 2).val = win0_3.index t (2 : Fin 3) * 256 + 1 * (y 2).val; omega

/-- An index of the array is in point `t`'s block iff each coordinate is in the block's range on its axis. -/
theorem mem_blk (t : Fin cfg0.N) (i : S32x8192x256.Idx) :
    i ∈ ((cfg0.win 3).blk t).view.set ↔ ∀ a : Fin 3, win0_3.index t a * S1x4096x256.size a ≤ (i a).val ∧ (i a).val < win0_3.index t a * S1x4096x256.size a + S1x4096x256.size a := by
  show i ∈ ((View.whole main_v20).slice (win0_3.rect t)).set ↔ _
  rw [View.set_slice_whole, Rect.mem_set_unit]
  exact Iff.rfl

/-- The 64 blocks cover the array: (r, n, d) is in the block of point (r, n / 4096). -/
theorem cover (i : S32x8192x256.Idx) : ∃ t : Fin cfg0.N, (cfg0.win 3).flush t = true ∧ i ∈ ((cfg0.win 3).blk t).view.set := by
  have hi0 : (i 0).val < 32 := (i 0).isLt
  have hi1 : (i 1).val < 8192 := (i 1).isLt
  have hi2 : (i 2).val < 256 := (i 2).isLt
  obtain ⟨t, ht⟩ := idx_onto ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 256 ≤ (i 2).val ∧ (i 2).val < win0_3.index t (2 : Fin 3) * 256 + 256; omega

/-- THE ARRAY after the run is the argument array with its marked rows replaced by the embedding row. -/
theorem final (c : Dev nD) : (dats m 0 c).arrAt 3 cfg0.N = result m c :=
  (dats m 0 c).arrAt_eq_of_cover 3 (result m c) (fun t _ => flushed_eq m c t) cover

/-- The kernel's run with its result array read: every weakly fair execution terminates with the result at the
    replaced array and the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Rows

end
-- ==== Proof.RefScatter.lean ====
/-
  The reference's scatter, read at an index.

  The reference scatters rows: update (p, k, d) is element `d` of the embedding row, and it lands on
  (pair₀(p, k), pair₁(p, k), d) when the pair points inside the array.  So every update landing on (r, n, d)
  carries the same value, the embedding row's element `d`, and the result is the array with its marked rows replaced.
-/
import proofs.«151775_j59176059404649_2_alg».proof.Proof.Gen.ReferenceIdeal.Read
import proofs.«151775_j59176059404649_2_alg».proof.Proof.LibScatterSet
import proofs.«151775_j59176059404649_2_alg».proof.Proof.RowReplace
import Idealize.ShloMosaic.Lib.ValueIdx

noncomputable section

namespace Cert.ReferenceIdeal.RefValue

open Cert.ReferenceIdeal Cert.ReferenceIdeal.Gen Cert.ReferenceIdeal.Read Cert.RowReplace
open Idealize.ShloMosaic Idealize.ShloMosaic.ValueIdx

/-- The reference's scatter: two index components for the first two axes of the operand, the third axis a
    window of the update's last axis. -/
abbrev dR : ScatterDims S32x8192x256 S32x1228x2 S32x1228x256 := scatter_S32x8192x256_S32x1228x2_S32x1228x256_2_01_01_2

/-- The scatter-indices index at which update `j` reads component `c` of its pair. -/
theorem siIdx_eq (j : S32x1228x256.Idx) (c : Fin 2) : dR.siIdx j ⟨c.val, c.isLt⟩ = ix3 (j 0) (j 1) c := by
  funext b
  match b with
  | ⟨0, _⟩ => rfl
  | ⟨1, _⟩ => rfl
  | ⟨2, _⟩ => rfl

theorem start0 (j : S32x1228x256.Idx) (idx : IVec S32x1228x2 32) :
    dR.start j idx (0 : Fin 3) = (idx (ix3 (j 0) (j 1) (0 : Fin 2))).toInt := by
  show (idx (dR.siIdx j ⟨(0 : Fin 2).val, (0 : Fin 2).isLt⟩)).toInt = _
  rw [siIdx_eq]; rfl

theorem start1 (j : S32x1228x256.Idx) (idx : IVec S32x1228x2 32) :
    dR.start j idx (1 : Fin 3) = (idx (ix3 (j 0) (j 1) (1 : Fin 2))).toInt := by
  show (idx (dR.siIdx j ⟨(1 : Fin 2).val, (1 : Fin 2).isLt⟩)).toInt = _
  rw [siIdx_eq]; rfl

/-- The last axis is not scattered: its start is 0, and the window coordinate is the update's last coordinate. -/
theorem start2 (j : S32x1228x256.Idx) (idx : IVec S32x1228x2 32) : dR.start j idx (2 : Fin 3) = 0 := rfl
theorem window0 (j : S32x1228x256.Idx) : dR.window j (0 : Fin 3) = 0 := rfl
theorem window1 (j : S32x1228x256.Idx) : dR.window j (1 : Fin 3) = 0 := rfl
theorem window2 (j : S32x1228x256.Idx) : dR.window j (2 : Fin 3) = (j 2).val := rfl

/-- Update `j` lands on `i` exactly when its pair, read signed, is `i`'s first two coordinates and its last
    coordinate is `i`'s. -/
theorem lands_iff (j : S32x1228x256.Idx) (idx : IVec S32x1228x2 32) (i : S32x8192x256.Idx) :
    dR.resultIdx? j idx = some i ↔
      (idx (ix3 (j 0) (j 1) (0 : Fin 2))).toInt = ((i 0).val : Int) ∧ (idx (ix3 (j 0) (j 1) (1 : Fin 2))).toInt = ((i 1).val : Int)
        ∧ (j 2).val = (i 2).val := by
  rw [ScatterSet.resultIdx?_eq_some_iff]
  constructor
  · intro h
    have h0 := h (0 : Fin 3)
    have h1 := h (1 : Fin 3)
    have h2 := h (2 : Fin 3)
    rw [start0, window0] at h0
    rw [start1, window1] at h1
    rw [start2, window2] at h2
    exact ⟨by omega, by omega, by omega⟩
  · rintro ⟨h0, h1, h2⟩ a
    match a with
    | ⟨0, _⟩ => show dR.start j idx (0 : Fin 3) + (dR.window j (0 : Fin 3) : Int) = ((i (0 : Fin 3)).val : Int); rw [start0, window0]; omega
    | ⟨1, _⟩ => show dR.start j idx (1 : Fin 3) + (dR.window j (1 : Fin 3) : Int) = ((i (1 : Fin 3)).val : Int); rw [start1, window1]; omega
    | ⟨2, _⟩ => show dR.start j idx (2 : Fin 3) + (dR.window j (2 : Fin 3) : Int) = ((i (2 : Fin 3)).val : Int); rw [start2, window2]; omega

/-- Some update lands on `i` exactly when `i`'s row is marked. -/
theorem exists_lands_iff (idx : IVec S32x1228x2 32) (i : S32x8192x256.Idx) :
    (∃ j, dR.resultIdx? j idx = some i) ↔ Marked idx (i 0) (i 1) := by
  constructor
  · rintro ⟨j, hj⟩
    rw [lands_iff] at hj
    exact ⟨j 0, j 1, hj.1, hj.2.1⟩
  · rintro ⟨p, k, h0, h1⟩
    exact ⟨ix3 p k (i 2), (lands_iff _ _ _).2 ⟨h0, h1, rfl⟩⟩

/-- The updates are the embedding row repeated: update (p, k, d) is the row's element `d`. -/
theorem upd_apply (x2 : FVec Ideal S1x256 .f32) (j : S32x1228x256.Idx) :
    val_main_v17 (F := Ideal) x2 j = x2 (ix2 (0 : Fin 1) (j 2)) := by
  rw [val_main_v17_apply, val_main_v2_apply]
  congr 1
  funext a
  match a with
  | ⟨0, _⟩ => rfl
  | ⟨1, _⟩ => exact Fin.ext (Nat.mod_eq_of_lt (j 2).isLt)

/-- THE REFERENCE'S RESULT is the argument array with its marked rows replaced by the embedding row. -/
theorem result_eq (x0 : FVec Ideal S32x8192x256 .f32) (x1 : IVec S32x1228 32) (x2 : FVec Ideal S1x256 .f32) :
    val_main_v18 (F := Ideal) x0 x1 x2 = replaced x0 (val_main_v16 (F := Ideal) x1) x2 := by
  funext i
  unfold val_main_v18
  by_cases h : Marked (val_main_v16 (F := Ideal) x1) (i 0) (i 1)
  · rw [replaced_of_marked _ _ _ _ h]
    refine ScatterSet.scatter_set_of_hit dR _ _ _ i _ (fun j hj => ?_) ((exists_lands_iff _ i).2 h)
    have e : j 2 = i 2 := Fin.ext ((lands_iff _ _ _).1 hj).2.2
    rw [upd_apply, e]
  · rw [replaced_of_not_marked _ _ _ _ h]
    exact ScatterSet.scatter_set_of_miss dR _ _ _ i (fun j hj => h ((exists_lands_iff _ i).1 ⟨j, hj⟩))

end Cert.ReferenceIdeal.RefValue

end
-- ==== Proof.lean ====
/-
  Per-row masking by scattered indices: a Pallas kernel over a dense 0/1 mask against a row scatter.

  Arguments: `x : f32[32, 8192, 256]`, indices `mask_indices : i32[32, 1228]`, one row `emb_mask : f32[1, 256]`.
  Both programs first turn the indices into pairs (batch, row): the batch number of the index's position, and the index
  with 8192 added when it is negative.  A pair that points inside [0, 32) × [0, 8192) MARKS that row.

  * The reference scatters the row `emb_mask[0]` into `x` at the pairs (jnp `x.at[b, idx, :].set(row)`).
  * The kernel's host code scatters the constant 1.0 into a [32, 8192] array of zeros at the same pairs, and the
    Pallas kernel, tiled over (batch, half of the rows), selects per element the row's element where the mask entry
    differs from 0.0 and `x`'s element elsewhere.

  A scatter is a fold over the updates in some order, but here every update that lands on a given element carries the
  same value there (the constant 1.0; the row's element `d` for the last coordinate `d`), so either scatter's result
  at an element is that value when some pair marks the element's row, and the operand's element otherwise — in any
  order, and however often a row is named (Proof/LibScatterSet.lean).  Hence both programs end at ONE function of
  the arguments, `replaced` (Proof/RowReplace.lean): marked rows hold the row `emb_mask[0]`, the others are `x`'s.
  The kernel side is Proof/KernelMask.lean (the mask is 1.0 exactly on marked rows) and Proof/KernelRows.lean (the
  select, block by block, and the 64 blocks tiling the array); the reference side is Proof/RefScatter.lean.  Nothing
  needs the inputs finite: a select moves values and computes none.  The second result is the index argument itself.
  The ideal pass rewrote nothing, so the kernel's idealization is its own text read over the extended reals.
-/
import proofs.«151775_j59176059404649_2_alg».proof.Defs
import proofs.«151775_j59176059404649_2_alg».proof.Proof.Gen.Kernel
import proofs.«151775_j59176059404649_2_alg».proof.Proof.Gen.Kernel.Skeleton
import proofs.«151775_j59176059404649_2_alg».proof.Proof.Gen.Kernel.Launch
import proofs.«151775_j59176059404649_2_alg».proof.Proof.Gen.Kernel.Points
import proofs.«151775_j59176059404649_2_alg».proof.Proof.Gen.Kernel.Frame
import proofs.«151775_j59176059404649_2_alg».proof.Proof.Gen.KernelIdeal
import proofs.«151775_j59176059404649_2_alg».proof.Proof.Gen.KernelIdeal.Skeleton
import proofs.«151775_j59176059404649_2_alg».proof.Proof.Gen.KernelIdeal.Launch
import proofs.«151775_j59176059404649_2_alg».proof.Proof.Gen.KernelIdeal.Points
import proofs.«151775_j59176059404649_2_alg».proof.Proof.Gen.KernelIdeal.Frame
import proofs.«151775_j59176059404649_2_alg».proof.Proof.Gen.ReferenceIdeal
import proofs.«151775_j59176059404649_2_alg».proof.Proof.Gen.Pre_finite_inputs
import proofs.«151775_j59176059404649_2_alg».proof.Proof.Gen.KernelIdeal.Value
import proofs.«151775_j59176059404649_2_alg».proof.Proof.Gen.ReferenceIdeal.Run
import proofs.«151775_j59176059404649_2_alg».proof.Proof.Gen.ReferenceIdeal.Read
import proofs.«151775_j59176059404649_2_alg».proof.Proof.KernelRows
import proofs.«151775_j59176059404649_2_alg».proof.Proof.RefScatter
import Idealize.ShloMosaic.Adequacy
import Idealize.ShloMosaic.Init

noncomputable section

namespace Cert.Proof

open Idealize.ShloMosaic Idealize.ShloMosaic.TcCoe Idealize.SL.Sem

/-- Both programs compute the index pairs by the same operations of the index argument. -/
theorem pairs_agree (x1 : IVec Cert.KernelIdeal.S32x1228 32) :
    Cert.ReferenceIdeal.Read.val_main_v16 (F := Ideal) x1 = Cert.KernelIdeal.Mask.idxArr x1 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments, the kernel's result array and the reference's are the same replaced
    array, and the second result of both is the index argument. -/
theorem algebraic : Cert.algebraic_KernelIdeal_ReferenceIdeal := by
  intro m ρ m' ρ' _ hagree
  refine ⟨fun c => Cert.KernelIdeal.Rows.result m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1, (h c).2.2.1, (h c).2.1, (h c).2.2.1, (h c).2.2.2⟩) (Cert.KernelIdeal.Rows.run m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    rw [(hagree c).1, (hagree c).2.1, (hagree c).2.2]
    have e := Cert.ReferenceIdeal.RefValue.result_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
    rw [pairs_agree] at e
    exact e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
